-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x64x256 : Shape := ⟨5, ![4, 16, 64, 64, 256]⟩
abbrev S_ : Shape := ⟨0, ![]⟩

class Facts : Prop where
  bcast_S_S4x16x64x64x256 : S_.BroadcastsInDim S4x16x64x64x256 (![] : Fin 0 → Fin S4x16x64x64x256.rank)
  reducesTo_S4x16x64x64x256_S_d0_1_2_3_4 : S4x16x64x64x256.ReducesTo [0, 1, 2, 3, 4] S_
  h_S_ : 0 < S_.numel

variable [Facts]

def fn {F : FTy → Type} [FloatOps F] (main_arg0 : FVec F S4x16x64x64x256 .f32) : IVec S_ 1 :=
  let main_v0 : FVec F S4x16x64x64x256 .f32 := Host.absf main_arg0
  let main_cst : FVec F S_ .f32 := constant S_ .f32 0x7F800000#32
  let main_v1 : FVec F S4x16x64x64x256 .f32 := broadcastInDim S4x16x64x64x256 ![] bcast_S_S4x16x64x64x256 main_cst
  let main_v2 : IVec S4x16x64x64x256 1 := cmpf .olt main_v0 main_v1
  let main_c : IVec S_ 1 := constantI S_ 1 1#1
  let main_v3 : IVec S_ 1 := (fun x v => Host.reduce IntOp.andi x v reducesTo_S4x16x64x64x256_S_d0_1_2_3_4 h_S_) main_v2 main_c
  main_v3
-- ==== Kernel.lean ====
abbrev S4x16x64x64x256 : Shape := ⟨5, ![4, 16, 64, 64, 256]⟩
abbrev S4x16x4096x256 : Shape := ⟨4, ![4, 16, 4096, 256]⟩
abbrev S1x16x256x256 : Shape := ⟨4, ![1, 16, 256, 256]⟩
abbrev S1x16x256x64 : Shape := ⟨4, ![1, 16, 256, 64]⟩
abbrev S1x16x256x128 : Shape := ⟨4, ![1, 16, 256, 128]⟩
abbrev S1x1x256x64 : Shape := ⟨4, ![1, 1, 256, 64]⟩
abbrev S1x15x256x64 : Shape := ⟨4, ![1, 15, 256, 64]⟩

abbrev nBuf : Space → Nat
  | .hbm => 4
  | .vmem => 4
  | .smem => 0
  | _ => 0

abbrev bufTy : (tb : Table) → Fin (tcTables nBuf tb) → BufTy
  | .hbm, ⟨0, _⟩ => ⟨S4x16x64x64x256, .f32⟩
  | .hbm, ⟨1, _⟩ => ⟨S4x16x4096x256, .f32⟩
  | .hbm, ⟨2, _⟩ => ⟨S4x16x4096x256, .f32⟩
  | .hbm, ⟨3, _⟩ => ⟨S4x16x64x64x256, .f32⟩
  | .local _ .vmem, ⟨0, _⟩ => ⟨S1x16x256x256, .f32⟩
  | .local _ .vmem, ⟨1, _⟩ => ⟨S1x16x256x256, .f32⟩
  | .local _ .vmem, ⟨2, _⟩ => ⟨S1x16x256x256, .f32⟩
  | .local _ .vmem, ⟨3, _⟩ => ⟨S1x16x256x256, .f32⟩
  | _, _ => ⟨S4x16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S4x16x64x64x256_S4x16x4096x256 : S4x16x64x64x256.ShapeCasts S4x16x4096x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S1x16x256x256 : S1x16x256x256.ShapeCasts S1x16x256x256
  slices_S1x16x256x256_o0_0_0_0_S1x16x256x64 : S1x16x256x256.Slices ![0, 0, 0, 0] S1x16x256x64
  slices_S1x16x256x256_o0_0_0_64_S1x16x256x64 : S1x16x256x256.Slices ![0, 0, 0, 64] S1x16x256x64
  slices_S1x16x256x256_o0_0_0_128_S1x16x256x128 : S1x16x256x256.Slices ![0, 0, 0, 128] S1x16x256x128
  slices_S1x16x256x64_o0_1_0_0_S1x15x256x64 : S1x16x256x64.Slices ![0, 1, 0, 0] S1x15x256x64
  concatenates_S1x15x256x64_S1x1x256x64_S1x16x256x64_d1 : Shape.Concatenates [S1x15x256x64, S1x1x256x64] S1x16x256x64 1
  slices_S1x16x256x64_o0_0_0_0_S1x15x256x64 : S1x16x256x64.Slices ![0, 0, 0, 0] S1x15x256x64
  concatenates_S1x1x256x64_S1x15x256x64_S1x16x256x64_d1 : Shape.Concatenates [S1x1x256x64, S1x15x256x64] S1x16x256x64 1
  concatenates_S1x16x256x64_S1x16x256x64_S1x16x256x128_S1x16x256x256_d3 : Shape.Concatenates [S1x16x256x64, S1x16x256x64, S1x16x256x128] S1x16x256x256 3
  shapeCasts_S4x16x4096x256_S4x16x64x64x256 : S4x16x4096x256.ShapeCasts S4x16x64x64x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S4x16x4096x256.size a
  hwx0_0 : ∀ i : grid0.Coords, EltTy.bits .f32 = 32 ∨ (Rect.block (s := S4x16x4096x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256x256.size a ≤ S4x16x4096x256.size a
  hwx0_1 : ∀ i : grid0.Coords, EltTy.bits .f32 = 32 ∨ (Rect.block (s := S4x16x4096x256) S1x16x256x256.size (cc0_transform_1 i) (hinb0_1 i)).WholeWords (EltTy.packing .f32)

variable [Facts₀]

abbrev win0_0 : Pipeline.Window sig grid0 :=
  Pipeline.Window.ofSpec (Memref.whole main_v0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x16x64x64x256 : Shape := ⟨5, ![4, 16, 64, 64, 256]⟩
abbrev S4x16x64x64x64 : Shape := ⟨5, ![4, 16, 64, 64, 64]⟩
abbrev S4x16x64x64x128 : Shape := ⟨5, ![4, 16, 64, 64, 128]⟩
abbrev S4x1x64x64x64 : Shape := ⟨5, ![4, 1, 64, 64, 64]⟩
abbrev S_ : Shape := ⟨0, ![]⟩
abbrev S4x15x64x64x64 : Shape := ⟨5, ![4, 15, 64, 64, 64]⟩

abbrev nBuf : Space → Nat
  | .hbm => 15
  | .vmem => 0
  | .smem => 0
  | _ => 0

abbrev bufTy : (tb : Table) → Fin (tcTables nBuf tb) → BufTy
  | .hbm, ⟨0, _⟩ => ⟨S4x16x64x64x256, .f32⟩
  | .hbm, ⟨1, _⟩ => ⟨S4x16x64x64x64, .f32⟩
  | .hbm, ⟨2, _⟩ => ⟨S4x16x64x64x64, .f32⟩
  | .hbm, ⟨3, _⟩ => ⟨S4x16x64x64x128, .f32⟩
  | .hbm, ⟨4, _⟩ => ⟨S4x1x64x64x64, .f32⟩
  | .hbm, ⟨5, _⟩ => ⟨S_, .f32⟩
  | .hbm, ⟨6, _⟩ => ⟨S4x1x64x64x64, .f32⟩
  | .hbm, ⟨7, _⟩ => ⟨S4x15x64x64x64, .f32⟩
  | .hbm, ⟨8, _⟩ => ⟨S4x16x64x64x64, .f32⟩
  | .hbm, ⟨9, _⟩ => ⟨S4x1x64x64x64, .f32⟩
  | .hbm, ⟨10, _⟩ => ⟨S_, .f32⟩
  | .hbm, ⟨11, _⟩ => ⟨S4x1x64x64x64, .f32⟩
  | .hbm, ⟨12, _⟩ => ⟨S4x15x64x64x64, .f32⟩
  | .hbm, ⟨13, _⟩ => ⟨S4x16x64x64x64, .f32⟩
  | .hbm, ⟨14, _⟩ => ⟨S4x16x64x64x256, .f32⟩
  | _, _ => ⟨S4x16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]

class Facts₀ : Prop where
  slices_S4x16x64x64x256_S4x16x64x64x64_0_0_0_0_0 : S4x16x64x64x256.Slices ![0, 0, 0, 0, 0] S4x16x64x64x64
  slices_S4x16x64x64x256_S4x16x64x64x64_0_0_0_0_64 : S4x16x64x64x256.Slices ![0, 0, 0, 0, 64] S4x16x64x64x64
  slices_S4x16x64x64x256_S4x16x64x64x128_0_0_0_0_128 : S4x16x64x64x256.Slices ![0, 0, 0, 0, 128] S4x16x64x64x128
  slices_S4x16x64x64x64_S4x1x64x64x64_0_0_0_0_0 : S4x16x64x64x64.Slices ![0, 0, 0, 0, 0] S4x1x64x64x64
  bcast_S_S4x1x64x64x64 : S_.BroadcastsInDim S4x1x64x64x64 (![] : Fin 0 → Fin S4x1x64x64x64.rank)
  slices_S4x16x64x64x64_S4x15x64x64x64_0_1_0_0_0 : S4x16x64x64x64.Slices ![0, 1, 0, 0, 0] S4x15x64x64x64
  concatenates_S4x15x64x64x64_S4x1x64x64x64_S4x16x64x64x64_d1 : Shape.Concatenates [S4x15x64x64x64, S4x1x64x64x64] S4x16x64x64x64 1
  slices_S4x16x64x64x64_S4x15x64x64x64_0_0_0_0_0 : S4x16x64x64x64.Slices ![0, 0, 0, 0, 0] S4x15x64x64x64
  concatenates_S4x1x64x64x64_S4x15x64x64x64_S4x16x64x64x64_d1 : Shape.Concatenates [S4x1x64x64x64, S4x15x64x64x64] S4x16x64x64x64 1
  concatenates_S4x16x64x64x64_S4x16x64x64x64_S4x16x64x64x128_S4x16x64x64x256_d4 : Shape.Concatenates [S4x16x64x64x64, S4x16x64x64x64, S4x16x64x64x128] S4x16x64x64x256 4

variable [Facts₀]

class Facts : Prop extends Facts₀ where

variable [Facts]
-- ==== Proof.TemporalShift.lean ====
/-
  The temporal shift of a video tensor, as ONE function of the input array.

  The tensor is [batch, frame, row, column, channel] = [4, 16, 64, 64, 256]. The channels fall in three groups:
    * channels 0 … 63 of frame `t` take the entry of frame `t + 1` (zero at the last frame),
    * channels 64 … 127 of frame `t` take the entry of frame `t - 1` (zero at the first frame),
    * channels 128 … 255 are kept.
  Everything else about the index is untouched, so the result at an index depends only on the LINE of input entries
  through that index along the frame axis: `pick` says which entry of the line is taken. The same rule is stated over
  three layouts of the same data: the five-axis tensor, the tensor with rows and columns merged into 4096 pixels, and
  one tile of the latter (one batch entry, all 16 frames, 256 consecutive pixels, all channels). No arithmetic is
  involved: the element type is arbitrary and the zero is a parameter.
-/
import Idealize.ShloMosaic.Lib.ValueIdx

noncomputable section

namespace Cert.Shift

open Idealize.ShloMosaic Idealize.ShloMosaic.ValueIdx

/-- [batch, frame, row, column, channel]. -/
abbrev Video : Shape := ⟨5, ![4, 16, 64, 64, 256]⟩
/-- [batch, frame, pixel, channel], pixel = 64 · row + column. -/
abbrev Flat : Shape := ⟨4, ![4, 16, 4096, 256]⟩
/-- One tile of `Flat`: one batch entry, every frame, 256 consecutive pixels, every channel. -/
abbrev Tile : Shape := ⟨4, ![1, 16, 256, 256]⟩

variable {α : Type}

/-- The shifted entry at frame `t` and channel `ch`, from the line of input entries along the frame axis. -/
def pick (z : α) (t : Fin 16) (ch : Nat) (line : Fin 16 → α) : α :=
  if ch < 64 then (if h : t.val + 1 < 16 then line ⟨t.val + 1, h⟩ else z)
  else if ch < 128 then (if h : 1 ≤ t.val then line ⟨t.val - 1, by omega⟩ else z)
  else line t

/-- `pick` depends on the frame, the channel and the line only. -/
theorem pick_congr (z : α) {t t' : Fin 16} {ch ch' : Nat} {line line' : Fin 16 → α}
    (ht : t = t') (hc : ch = ch') (hl : line = line') : pick z t ch line = pick z t' ch' line' := by
  subst ht; subst hc; subst hl; rfl

/-- The temporal shift of the five-axis tensor. -/
def shiftVideo (z : α) (x : Video.Idx → α) : Video.Idx → α := fun i =>
  pick z (i 1) (i 4).val fun t' => x (ix5 (i 0) t' (i 2) (i 3) (i 4))

/-- The temporal shift of the tensor with its pixels merged. -/
def shiftFlat (z : α) (x : Flat.Idx → α) : Flat.Idx → α := fun i =>
  pick z (i 1) (i 3).val fun t' => x (ix4 (i 0) t' (i 2) (i 3))

/-- The temporal shift inside one tile: every frame and every channel of a pixel lie in the same tile. -/
def shiftTile (z : α) (x : Tile.Idx → α) : Tile.Idx → α := fun i =>
  pick z (i 1) (i 3).val fun t' => x (ix4 (i 0) t' (i 2) (i 3))

end Cert.Shift

end
-- ==== Proof.JoinRead.lean ====
/-
  Joins read at an index.

  A join of arrays along one axis, read at an index, is one of the joined pieces read at the same index, except that the
  coordinate on the joined axis is counted from the start of that piece. Stated here for the three joins the temporal
  shift is made of — the three channel groups (64 + 64 + 128 channels) laid side by side, fifteen frames followed by one,
  and one frame followed by fifteen — over the five-axis shapes [4, ·, 64, 64, ·] and over the tile shapes [1, ·, 256, ·].
-/
import Idealize.ShloMosaic.Lib.ValueIdx
import Idealize.ShloMosaic.Lib.Pipeline.Value

noncomputable section

namespace Cert.Shift

open Idealize.ShloMosaic Idealize.ShloMosaic.ValueIdx

variable {α : Type}

/-! ## Five axes: [batch, frame, row, column, channel] -/

abbrev V256 : Shape := ⟨5, ![4, 16, 64, 64, 256]⟩
abbrev V64 : Shape := ⟨5, ![4, 16, 64, 64, 64]⟩
abbrev V128 : Shape := ⟨5, ![4, 16, 64, 64, 128]⟩
abbrev V15f : Shape := ⟨5, ![4, 15, 64, 64, 64]⟩
abbrev V1f : Shape := ⟨5, ![4, 1, 64, 64, 64]⟩

/-- Three channel groups side by side: channel `c` is in the first group below 64, in the second below 128, else in the third. -/
theorem join_channels_video (p0 p1 : V64.Idx → α) (p2 : V128.Idx → α) (hc : Shape.Concatenates [V64, V64, V128] V256 4)
    (b : Fin 4) (t : Fin 16) (r : Fin 64) (w : Fin 64) (c : Fin 256) :
    concatenate V256 4 [⟨V64, p0⟩, ⟨V64, p1⟩, ⟨V128, p2⟩] hc (ix5 b t r w c)
      = if h0 : c.val < 64 then p0 (ix5 b t r w ⟨c.val, h0⟩)
        else if h1 : c.val < 128 then p1 (ix5 b t r w ⟨c.val - 64, by omega⟩)
        else p2 (ix5 b t r w ⟨c.val - 128, by omega⟩) := by
  by_cases h0 : c.val < 64
  · rw [dif_pos h0]
    exact concatenate_apply_piece (t := V256) (a := (4 : Fin 5)) (xs := [⟨V64, p0⟩, ⟨V64, p1⟩, ⟨V128, p2⟩]) (h := hc) (j := (ix5 b t r w c)) (k := 0) (hk := by simp)
      (s₁ := V64) (x₁ := p0) (hxk := rfl) (hr := rfl) (pre := 0) (hpre := rfl) (i := (ix5 b t r w ⟨c.val, h0⟩))
      (hi := (fun a ha => by
        match a with
        | ⟨0, _⟩ => rfl | ⟨1, _⟩ => rfl | ⟨2, _⟩ => rfl | ⟨3, _⟩ => rfl | ⟨4, _⟩ => exact absurd (Fin.ext rfl) ha))
      (ha := by show 0 + c.val = c.val; omega)
  · rw [dif_neg h0]
    by_cases h1 : c.val < 128
    · rw [dif_pos h1]
      exact concatenate_apply_piece (t := V256) (a := (4 : Fin 5)) (xs := [⟨V64, p0⟩, ⟨V64, p1⟩, ⟨V128, p2⟩]) (h := hc) (j := (ix5 b t r w c)) (k := 1) (hk := by simp)
        (s₁ := V64) (x₁ := p1) (hxk := rfl) (hr := rfl) (pre := 64) (hpre := rfl) (i := (ix5 b t r w ⟨c.val - 64, by omega⟩))
        (hi := (fun a ha => by
          match a with
          | ⟨0, _⟩ => rfl | ⟨1, _⟩ => rfl | ⟨2, _⟩ => rfl | ⟨3, _⟩ => rfl | ⟨4, _⟩ => exact absurd (Fin.ext rfl) ha))
        (ha := by show 64 + (c.val - 64) = c.val; omega)
    · rw [dif_neg h1]
      exact concatenate_apply_piece (t := V256) (a := (4 : Fin 5)) (xs := [⟨V64, p0⟩, ⟨V64, p1⟩, ⟨V128, p2⟩]) (h := hc) (j := (ix5 b t r w c)) (k := 2) (hk := by simp)
        (s₁ := V128) (x₁ := p2) (hxk := rfl) (hr := rfl) (pre := 128) (hpre := rfl) (i := (ix5 b t r w ⟨c.val - 128, by omega⟩))
        (hi := (fun a ha => by
          match a with
          | ⟨0, _⟩ => rfl | ⟨1, _⟩ => rfl | ⟨2, _⟩ => rfl | ⟨3, _⟩ => rfl | ⟨4, _⟩ => exact absurd (Fin.ext rfl) ha))
        (ha := by show 128 + (c.val - 128) = c.val; omega)

/-- Fifteen frames followed by one: frame `t` is in the first piece below 15, else it is the one frame of the second. -/
theorem join_frames_video_15_1 (pa : V15f.Idx → α) (pb : V1f.Idx → α) (hc : Shape.Concatenates [V15f, V1f] V64 1)
    (b : Fin 4) (t : Fin 16) (r : Fin 64) (w : Fin 64) (c : Fin 64) :
    concatenate V64 1 [⟨V15f, pa⟩, ⟨V1f, pb⟩] hc (ix5 b t r w c)
      = if h : t.val < 15 then pa (ix5 b ⟨t.val, h⟩ r w c) else pb (ix5 b ⟨t.val - 15, by omega⟩ r w c) := by
  by_cases h : t.val < 15
  · rw [dif_pos h]
    exact concatenate_apply_piece (t := V64) (a := (1 : Fin 5)) (xs := [⟨V15f, pa⟩, ⟨V1f, pb⟩]) (h := hc) (j := (ix5 b t r w c)) (k := 0) (hk := by simp)
      (s₁ := V15f) (x₁ := pa) (hxk := rfl) (hr := rfl) (pre := 0) (hpre := rfl) (i := (ix5 b ⟨t.val, h⟩ r w c))
      (hi := (fun a ha => by
        match a with
        | ⟨0, _⟩ => rfl | ⟨2, _⟩ => rfl | ⟨3, _⟩ => rfl | ⟨4, _⟩ => rfl | ⟨1, _⟩ => exact absurd (Fin.ext rfl) ha))
      (ha := by show 0 + t.val = t.val; omega)
  · rw [dif_neg h]
    exact concatenate_apply_piece (t := V64) (a := (1 : Fin 5)) (xs := [⟨V15f, pa⟩, ⟨V1f, pb⟩]) (h := hc) (j := (ix5 b t r w c)) (k := 1) (hk := by simp)
      (s₁ := V1f) (x₁ := pb) (hxk := rfl) (hr := rfl) (pre := 15) (hpre := rfl) (i := (ix5 b ⟨t.val - 15, by omega⟩ r w c))
      (hi := (fun a ha => by
        match a with
        | ⟨0, _⟩ => rfl | ⟨2, _⟩ => rfl | ⟨3, _⟩ => rfl | ⟨4, _⟩ => rfl | ⟨1, _⟩ => exact absurd (Fin.ext rfl) ha))
      (ha := by show 15 + (t.val - 15) = t.val; omega)

/-- One frame followed by fifteen: frame 0 is the one frame of the first piece, frame `t ≥ 1` is frame `t - 1` of the second. -/
theorem join_frames_video_1_15 (pa : V1f.Idx → α) (pb : V15f.Idx → α) (hc : Shape.Concatenates [V1f, V15f] V64 1)
    (b : Fin 4) (t : Fin 16) (r : Fin 64) (w : Fin 64) (c : Fin 64) :
    concatenate V64 1 [⟨V1f, pa⟩, ⟨V15f, pb⟩] hc (ix5 b t r w c)
      = if h : t.val < 1 then pa (ix5 b ⟨t.val, h⟩ r w c) else pb (ix5 b ⟨t.val - 1, by omega⟩ r w c) := by
  by_cases h : t.val < 1
  · rw [dif_pos h]
    exact concatenate_apply_piece (t := V64) (a := (1 : Fin 5)) (xs := [⟨V1f, pa⟩, ⟨V15f, pb⟩]) (h := hc) (j := (ix5 b t r w c)) (k := 0) (hk := by simp)
      (s₁ := V1f) (x₁ := pa) (hxk := rfl) (hr := rfl) (pre := 0) (hpre := rfl) (i := (ix5 b ⟨t.val, h⟩ r w c))
      (hi := (fun a ha => by
        match a with
        | ⟨0, _⟩ => rfl | ⟨2, _⟩ => rfl | ⟨3, _⟩ => rfl | ⟨4, _⟩ => rfl | ⟨1, _⟩ => exact absurd (Fin.ext rfl) ha))
      (ha := by show 0 + t.val = t.val; omega)
  · rw [dif_neg h]
    exact concatenate_apply_piece (t := V64) (a := (1 : Fin 5)) (xs := [⟨V1f, pa⟩, ⟨V15f, pb⟩]) (h := hc) (j := (ix5 b t r w c)) (k := 1) (hk := by simp)
      (s₁ := V15f) (x₁ := pb) (hxk := rfl) (hr := rfl) (pre := 1) (hpre := rfl) (i := (ix5 b ⟨t.val - 1, by omega⟩ r w c))
      (hi := (fun a ha => by
        match a with
        | ⟨0, _⟩ => rfl | ⟨2, _⟩ => rfl | ⟨3, _⟩ => rfl | ⟨4, _⟩ => rfl | ⟨1, _⟩ => exact absurd (Fin.ext rfl) ha))
      (ha := by show 1 + (t.val - 1) = t.val; omega)

/-! ## One tile: [1, frame, pixel, channel] -/

abbrev T256 : Shape := ⟨4, ![1, 16, 256, 256]⟩
abbrev T64 : Shape := ⟨4, ![1, 16, 256, 64]⟩
abbrev T128 : Shape := ⟨4, ![1, 16, 256, 128]⟩
abbrev T15f : Shape := ⟨4, ![1, 15, 256, 64]⟩
abbrev T1f : Shape := ⟨4, ![1, 1, 256, 64]⟩

/-- Three channel groups side by side, inside a tile. -/
theorem join_channels_tile (p0 p1 : T64.Idx → α) (p2 : T128.Idx → α) (hc : Shape.Concatenates [T64, T64, T128] T256 3)
    (o : Fin 1) (t : Fin 16) (n : Fin 256) (c : Fin 256) :
    concatenate T256 3 [⟨T64, p0⟩, ⟨T64, p1⟩, ⟨T128, p2⟩] hc (ix4 o t n c)
      = if h0 : c.val < 64 then p0 (ix4 o t n ⟨c.val, h0⟩)
        else if h1 : c.val < 128 then p1 (ix4 o t n ⟨c.val - 64, by omega⟩)
        else p2 (ix4 o t n ⟨c.val - 128, by omega⟩) := by
  by_cases h0 : c.val < 64
  · rw [dif_pos h0]
    exact concatenate_apply_piece (t := T256) (a := (3 : Fin 4)) (xs := [⟨T64, p0⟩, ⟨T64, p1⟩, ⟨T128, p2⟩]) (h := hc) (j := (ix4 o t n c)) (k := 0) (hk := by simp)
      (s₁ := T64) (x₁ := p0) (hxk := rfl) (hr := rfl) (pre := 0) (hpre := rfl) (i := (ix4 o t n ⟨c.val, h0⟩))
      (hi := (fun a ha => by
        match a with
        | ⟨0, _⟩ => rfl | ⟨1, _⟩ => rfl | ⟨2, _⟩ => rfl | ⟨3, _⟩ => exact absurd (Fin.ext rfl) ha))
      (ha := by show 0 + c.val = c.val; omega)
  · rw [dif_neg h0]
    by_cases h1 : c.val < 128
    · rw [dif_pos h1]
      exact concatenate_apply_piece (t := T256) (a := (3 : Fin 4)) (xs := [⟨T64, p0⟩, ⟨T64, p1⟩, ⟨T128, p2⟩]) (h := hc) (j := (ix4 o t n c)) (k := 1) (hk := by simp)
        (s₁ := T64) (x₁ := p1) (hxk := rfl) (hr := rfl) (pre := 64) (hpre := rfl) (i := (ix4 o t n ⟨c.val - 64, by omega⟩))
        (hi := (fun a ha => by
          match a with
          | ⟨0, _⟩ => rfl | ⟨1, _⟩ => rfl | ⟨2, _⟩ => rfl | ⟨3, _⟩ => exact absurd (Fin.ext rfl) ha))
        (ha := by show 64 + (c.val - 64) = c.val; omega)
    · rw [dif_neg h1]
      exact concatenate_apply_piece (t := T256) (a := (3 : Fin 4)) (xs := [⟨T64, p0⟩, ⟨T64, p1⟩, ⟨T128, p2⟩]) (h := hc) (j := (ix4 o t n c)) (k := 2) (hk := by simp)
        (s₁ := T128) (x₁ := p2) (hxk := rfl) (hr := rfl) (pre := 128) (hpre := rfl) (i := (ix4 o t n ⟨c.val - 128, by omega⟩))
        (hi := (fun a ha => by
          match a with
          | ⟨0, _⟩ => rfl | ⟨1, _⟩ => rfl | ⟨2, _⟩ => rfl | ⟨3, _⟩ => exact absurd (Fin.ext rfl) ha))
        (ha := by show 128 + (c.val - 128) = c.val; omega)

/-- Fifteen frames followed by one, inside a tile. -/
theorem join_frames_tile_15_1 (pa : T15f.Idx → α) (pb : T1f.Idx → α) (hc : Shape.Concatenates [T15f, T1f] T64 1)
    (o : Fin 1) (t : Fin 16) (n : Fin 256) (c : Fin 64) :
    concatenate T64 1 [⟨T15f, pa⟩, ⟨T1f, pb⟩] hc (ix4 o t n c)
      = if h : t.val < 15 then pa (ix4 o ⟨t.val, h⟩ n c) else pb (ix4 o ⟨t.val - 15, by omega⟩ n c) := by
  by_cases h : t.val < 15
  · rw [dif_pos h]
    exact concatenate_apply_piece (t := T64) (a := (1 : Fin 4)) (xs := [⟨T15f, pa⟩, ⟨T1f, pb⟩]) (h := hc) (j := (ix4 o t n c)) (k := 0) (hk := by simp)
      (s₁ := T15f) (x₁ := pa) (hxk := rfl) (hr := rfl) (pre := 0) (hpre := rfl) (i := (ix4 o ⟨t.val, h⟩ n c))
      (hi := (fun a ha => by
        match a with
        | ⟨0, _⟩ => rfl | ⟨2, _⟩ => rfl | ⟨3, _⟩ => rfl | ⟨1, _⟩ => exact absurd (Fin.ext rfl) ha))
      (ha := by show 0 + t.val = t.val; omega)
  · rw [dif_neg h]
    exact concatenate_apply_piece (t := T64) (a := (1 : Fin 4)) (xs := [⟨T15f, pa⟩, ⟨T1f, pb⟩]) (h := hc) (j := (ix4 o t n c)) (k := 1) (hk := by simp)
      (s₁ := T1f) (x₁ := pb) (hxk := rfl) (hr := rfl) (pre := 15) (hpre := rfl) (i := (ix4 o ⟨t.val - 15, by omega⟩ n c))
      (hi := (fun a ha => by
        match a with
        | ⟨0, _⟩ => rfl | ⟨2, _⟩ => rfl | ⟨3, _⟩ => rfl | ⟨1, _⟩ => exact absurd (Fin.ext rfl) ha))
      (ha := by show 15 + (t.val - 15) = t.val; omega)

/-- One frame followed by fifteen, inside a tile. -/
theorem join_frames_tile_1_15 (pa : T1f.Idx → α) (pb : T15f.Idx → α) (hc : Shape.Concatenates [T1f, T15f] T64 1)
    (o : Fin 1) (t : Fin 16) (n : Fin 256) (c : Fin 64) :
    concatenate T64 1 [⟨T1f, pa⟩, ⟨T15f, pb⟩] hc (ix4 o t n c)
      = if h : t.val < 1 then pa (ix4 o ⟨t.val, h⟩ n c) else pb (ix4 o ⟨t.val - 1, by omega⟩ n c) := by
  by_cases h : t.val < 1
  · rw [dif_pos h]
    exact concatenate_apply_piece (t := T64) (a := (1 : Fin 4)) (xs := [⟨T1f, pa⟩, ⟨T15f, pb⟩]) (h := hc) (j := (ix4 o t n c)) (k := 0) (hk := by simp)
      (s₁ := T1f) (x₁ := pa) (hxk := rfl) (hr := rfl) (pre := 0) (hpre := rfl) (i := (ix4 o ⟨t.val, h⟩ n c))
      (hi := (fun a ha => by
        match a with
        | ⟨0, _⟩ => rfl | ⟨2, _⟩ => rfl | ⟨3, _⟩ => rfl | ⟨1, _⟩ => exact absurd (Fin.ext rfl) ha))
      (ha := by show 0 + t.val = t.val; omega)
  · rw [dif_neg h]
    exact concatenate_apply_piece (t := T64) (a := (1 : Fin 4)) (xs := [⟨T1f, pa⟩, ⟨T15f, pb⟩]) (h := hc) (j := (ix4 o t n c)) (k := 1) (hk := by simp)
      (s₁ := T15f) (x₁ := pb) (hxk := rfl) (hr := rfl) (pre := 1) (hpre := rfl) (i := (ix4 o ⟨t.val - 1, by omega⟩ n c))
      (hi := (fun a ha => by
        match a with
        | ⟨0, _⟩ => rfl | ⟨2, _⟩ => rfl | ⟨3, _⟩ => rfl | ⟨1, _⟩ => exact absurd (Fin.ext rfl) ha))
      (ha := by show 1 + (t.val - 1) = t.val; omega)

end Cert.Shift

end
-- ==== Proof.ReferenceShift.lean ====
/-
  The reference computes the temporal shift.

  The reference cuts the input into its three channel groups, shifts the first group one frame forward in time (frames
  1 … 15 followed by a zero frame), the second one frame back (a zero frame followed by frames 0 … 14), and lays the two
  shifted groups and the untouched third side by side again. Read at an index, each join picks one of its pieces by
  the coordinate on the joined axis and each cut adds its offset to that coordinate; composing them gives, entry by
  entry, the shift's rule.
-/
import proofs.«149480_j38646115730016_1_alg».proof.Proof.TemporalShift
import proofs.«149480_j38646115730016_1_alg».proof.Proof.JoinRead
import proofs.«149480_j38646115730016_1_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.ValueIdx Cert.Shift

variable {F : FTy → Type} [FloatOps F]

/-- The first channel group, one frame forward: frame `t` holds frame `t + 1` of the input, the last frame holds zero. -/
theorem forward_apply (x : (⟨S4x16x64x64x256, .f32⟩ : BufTy).Contents (Elt F))
    (b : Fin 4) (t : Fin 16) (r : Fin 64) (w : Fin 64) (c : Fin 64) :
    val_main_v6 (F := F) x (ix5 b t r w c)
      = if h : t.val + 1 < 16 then x (ix5 b ⟨t.val + 1, h⟩ r w ⟨c.val, by omega⟩)
        else FloatOps.ofBits .f32 0x00000000#32 := by
  unfold val_main_v6
  refine (join_frames_video_15_1 _ _ _ b t r w c).trans ?_
  by_cases h : t.val < 15
  · rw [dif_pos h, dif_pos (by omega : t.val + 1 < 16), val_main_v5_apply, val_main_v0_apply]
    refine congrArg x (funext fun a => Fin.ext ?_)
    match a with
    | ⟨0, _⟩ => rfl
    | ⟨1, _⟩ =>
      show 1 + t.val = t.val + 1
      omega
    | ⟨2, _⟩ => rfl
    | ⟨3, _⟩ => rfl
    | ⟨4, _⟩ => rfl
  · rw [dif_neg h, dif_neg (by omega : ¬ t.val + 1 < 16), val_main_v4_apply, val_main_cst_apply]

/-- The second channel group, one frame back: frame `t ≥ 1` holds frame `t - 1` of the input, the first frame holds zero. -/
theorem backward_apply (x : (⟨S4x16x64x64x256, .f32⟩ : BufTy).Contents (Elt F))
    (b : Fin 4) (t : Fin 16) (r : Fin 64) (w : Fin 64) (c : Fin 64) :
    val_main_v10 (F := F) x (ix5 b t r w c)
      = if h : 1 ≤ t.val then x (ix5 b ⟨t.val - 1, by omega⟩ r w ⟨64 + c.val, by omega⟩)
        else FloatOps.ofBits .f32 0x00000000#32 := by
  unfold val_main_v10
  refine (join_frames_video_1_15 _ _ _ b t r w c).trans ?_
  by_cases h : t.val < 1
  · rw [dif_pos h, dif_neg (by omega : ¬ 1 ≤ t.val), val_main_v8_apply, val_main_cst_0_apply]
  · rw [dif_neg h, dif_pos (by omega : 1 ≤ t.val), val_main_v9_apply, val_main_v1_apply]
    refine congrArg x (funext fun a => Fin.ext ?_)
    match a with
    | ⟨0, _⟩ => rfl
    | ⟨1, _⟩ => rfl
    | ⟨2, _⟩ => rfl
    | ⟨3, _⟩ => rfl
    | ⟨4, _⟩ => rfl

/-- The third channel group is the input's channels 128 … 255. -/
theorem kept_apply (x : (⟨S4x16x64x64x256, .f32⟩ : BufTy).Contents (Elt F))
    (b : Fin 4) (t : Fin 16) (r : Fin 64) (w : Fin 64) (c : Fin 128) :
    val_main_v2 (F := F) x (ix5 b t r w c) = x (ix5 b t r w ⟨128 + c.val, by omega⟩) := by
  rw [val_main_v2_apply]
  refine congrArg x (funext fun a => Fin.ext ?_)
  match a with
  | ⟨0, _⟩ => rfl
  | ⟨1, _⟩ => rfl
  | ⟨2, _⟩ => rfl
  | ⟨3, _⟩ => rfl
  | ⟨4, _⟩ => rfl

/-- The reference's result is the temporal shift of its argument, with the zero word as the entry past either end. -/
theorem reference_eq (x : (⟨S4x16x64x64x256, .f32⟩ : BufTy).Contents (Elt F)) :
    val_main_v11 (F := F) x = shiftVideo (FloatOps.ofBits .f32 0x00000000#32) x := by
  funext i
  obtain ⟨b, t, r, w, c, rfl⟩ : ∃ (b : Fin 4) (t : Fin 16) (r : Fin 64) (w : Fin 64) (c : Fin 256), i = ix5 b t r w c :=
    ⟨i 0, i 1, i 2, i 3, i 4, eq_ix5 i⟩
  unfold val_main_v11
  refine (join_channels_video _ _ _ _ b t r w c).trans ?_
  unfold shiftVideo pick
  show _ = if c.val < 64 then (if h : t.val + 1 < 16 then x (ix5 b ⟨t.val + 1, h⟩ r w c) else _)
      else if c.val < 128 then (if h : 1 ≤ t.val then x (ix5 b ⟨t.val - 1, by omega⟩ r w c) else _)
      else x (ix5 b t r w c)
  by_cases h0 : c.val < 64
  · rw [dif_pos h0, if_pos h0, forward_apply]
  · rw [dif_neg h0, if_neg h0]
    by_cases h1 : c.val < 128
    · rw [dif_pos h1, if_pos h1, backward_apply]
      have e : (⟨64 + (c.val - 64), by omega⟩ : Fin 256) = c := Fin.ext (by show 64 + (c.val - 64) = c.val; omega)
      simp only [e]
    · rw [dif_neg h1, if_neg h1, kept_apply]
      have e : (⟨128 + (c.val - 128), by omega⟩ : Fin 256) = c := Fin.ext (by show 128 + (c.val - 128) = c.val; omega)
      rw [e]

end Cert.ReferenceIdeal.RefValue

end
-- ==== Proof.BodyShift.lean ====
/-
  The kernel body computes the temporal shift of its tile.

  The body loads one tile — one batch entry, all 16 frames, 256 pixels, all 256 channels —, cuts it into the three
  channel groups, moves the first group one frame forward and the second one frame back, a zero frame filling the open
  end, lays the groups side by side again and stores the result over the whole output tile. All 16 frames of a pixel
  are inside the tile, so the stored tile is the shift's rule applied to the loaded tile, entry by entry.
-/
import proofs.«149480_j38646115730016_1_alg».proof.Proof.TemporalShift
import proofs.«149480_j38646115730016_1_alg».proof.Proof.JoinRead
import proofs.«149480_j38646115730016_1_alg».proof.Proof.Gen.KernelIdeal.Skeleton

noncomputable section

namespace Cert.Shift

open Idealize.ShloMosaic Idealize.ShloMosaic.ValueIdx

variable {α : Type}

/-- Frames 1 … 15 of the first channel group followed by a frame of `z`: frame `t` holds frame `t + 1` of the tile. -/
theorem forward_tile (v : T256.Idx → α) (z : α) (hs0 : T256.Slices ![0, 0, 0, 0] T64) (hs1 : T64.Slices ![0, 1, 0, 0] T15f)
    (hc : Shape.Concatenates [T15f, T1f] T64 1) (o : Fin 1) (t : Fin 16) (n : Fin 256) (c : Fin 64) :
    concatenate T64 1 [⟨T15f, extractStridedSlice T15f ![0, 1, 0, 0] (extractStridedSlice T64 ![0, 0, 0, 0] v hs0) hs1⟩,
        ⟨T1f, broadcast T1f z⟩] hc (ix4 o t n c)
      = if h : t.val + 1 < 16 then v (ix4 o ⟨t.val + 1, h⟩ n ⟨c.val, by omega⟩) else z := by
  refine (join_frames_tile_15_1 _ _ hc o t n c).trans ?_
  by_cases h : t.val < 15
  · rw [dif_pos h, dif_pos (by omega : t.val + 1 < 16)]
    refine (extractStridedSlice_apply _ _ hs1 _ (ix4 o ⟨t.val + 1, by omega⟩ n c) (fun a => ?_)).trans
      (extractStridedSlice_apply _ _ hs0 _ (ix4 o ⟨t.val + 1, by omega⟩ n ⟨c.val, by omega⟩) (fun a => ?_))
    · match a with
      | ⟨0, _⟩ =>
        show o.val = 0 + o.val
        omega
      | ⟨1, _⟩ =>
        show t.val + 1 = 1 + t.val
        omega
      | ⟨2, _⟩ =>
        show n.val = 0 + n.val
        omega
      | ⟨3, _⟩ =>
        show c.val = 0 + c.val
        omega
    · match a with
      | ⟨0, _⟩ =>
        show o.val = 0 + o.val
        omega
      | ⟨1, _⟩ =>
        show t.val + 1 = 0 + (t.val + 1)
        omega
      | ⟨2, _⟩ =>
        show n.val = 0 + n.val
        omega
      | ⟨3, _⟩ =>
        show c.val = 0 + c.val
        omega
  · rw [dif_neg h, dif_neg (by omega : ¬ t.val + 1 < 16)]
    rfl

/-- A frame of `z` followed by frames 0 … 14 of the second channel group: frame `t ≥ 1` holds frame `t - 1` of the tile. -/
theorem backward_tile (v : T256.Idx → α) (z : α) (hs0 : T256.Slices ![0, 0, 0, 64] T64) (hs1 : T64.Slices ![0, 0, 0, 0] T15f)
    (hc : Shape.Concatenates [T1f, T15f] T64 1) (o : Fin 1) (t : Fin 16) (n : Fin 256) (c : Fin 64) :
    concatenate T64 1 [⟨T1f, broadcast T1f z⟩,
        ⟨T15f, extractStridedSlice T15f ![0, 0, 0, 0] (extractStridedSlice T64 ![0, 0, 0, 64] v hs0) hs1⟩] hc (ix4 o t n c)
      = if h : 1 ≤ t.val then v (ix4 o ⟨t.val - 1, by omega⟩ n ⟨64 + c.val, by omega⟩) else z := by
  refine (join_frames_tile_1_15 _ _ hc o t n c).trans ?_
  by_cases h : t.val < 1
  · rw [dif_pos h, dif_neg (by omega : ¬ 1 ≤ t.val)]
    rfl
  · rw [dif_neg h, dif_pos (by omega : 1 ≤ t.val)]
    refine (extractStridedSlice_apply _ _ hs1 _ (ix4 o ⟨t.val - 1, by omega⟩ n c) (fun a => ?_)).trans
      (extractStridedSlice_apply _ _ hs0 _ (ix4 o ⟨t.val - 1, by omega⟩ n ⟨64 + c.val, by omega⟩) (fun a => ?_))
    · match a with
      | ⟨0, _⟩ =>
        show o.val = 0 + o.val
        omega
      | ⟨1, _⟩ =>
        show t.val - 1 = 0 + (t.val - 1)
        omega
      | ⟨2, _⟩ =>
        show n.val = 0 + n.val
        omega
      | ⟨3, _⟩ =>
        show c.val = 0 + c.val
        omega
    · match a with
      | ⟨0, _⟩ =>
        show o.val = 0 + o.val
        omega
      | ⟨1, _⟩ =>
        show t.val - 1 = 0 + (t.val - 1)
        omega
      | ⟨2, _⟩ =>
        show n.val = 0 + n.val
        omega
      | ⟨3, _⟩ =>
        show 64 + c.val = 64 + c.val
        omega

/-- The third channel group is the tile's channels 128 … 255. -/
theorem kept_tile (v : T256.Idx → α) (hs : T256.Slices ![0, 0, 0, 128] T128) (o : Fin 1) (t : Fin 16) (n : Fin 256) (c : Fin 128) :
    extractStridedSlice T128 ![0, 0, 0, 128] v hs (ix4 o t n c) = v (ix4 o t n ⟨128 + c.val, by omega⟩) := by
  refine extractStridedSlice_apply _ _ hs _ _ (fun a => ?_)
  match a with
  | ⟨0, _⟩ =>
    show o.val = 0 + o.val
    omega
  | ⟨1, _⟩ =>
    show t.val = 0 + t.val
    omega
  | ⟨2, _⟩ =>
    show n.val = 0 + n.val
    omega
  | ⟨3, _⟩ =>
    show 128 + c.val = 128 + c.val
    omega

/-- The three groups side by side again are the shift of the tile. -/
theorem groups_eq_shiftTile (v : T256.Idx → α) (z z' : α) (hz : z' = z)
    (hA0 : T256.Slices ![0, 0, 0, 0] T64) (hA1 : T64.Slices ![0, 1, 0, 0] T15f) (hAc : Shape.Concatenates [T15f, T1f] T64 1)
    (hB0 : T256.Slices ![0, 0, 0, 64] T64) (hB1 : T64.Slices ![0, 0, 0, 0] T15f) (hBc : Shape.Concatenates [T1f, T15f] T64 1)
    (hC : T256.Slices ![0, 0, 0, 128] T128) (hc : Shape.Concatenates [T64, T64, T128] T256 3) :
    concatenate T256 3
      [⟨T64, concatenate T64 1 [⟨T15f, extractStridedSlice T15f ![0, 1, 0, 0] (extractStridedSlice T64 ![0, 0, 0, 0] v hA0) hA1⟩,
          ⟨T1f, broadcast T1f z⟩] hAc⟩,
       ⟨T64, concatenate T64 1 [⟨T1f, broadcast T1f z'⟩,
          ⟨T15f, extractStridedSlice T15f ![0, 0, 0, 0] (extractStridedSlice T64 ![0, 0, 0, 64] v hB0) hB1⟩] hBc⟩,
       ⟨T128, extractStridedSlice T128 ![0, 0, 0, 128] v hC⟩] hc
      = shiftTile z v := by
  subst hz
  funext j
  obtain ⟨o, t, n, c, rfl⟩ : ∃ (o : Fin 1) (t : Fin 16) (n : Fin 256) (c : Fin 256), j = ix4 o t n c :=
    ⟨j 0, j 1, j 2, j 3, eq_ix4 j⟩
  refine (join_channels_tile _ _ _ hc o t n c).trans ?_
  unfold shiftTile pick
  show _ = if c.val < 64 then (if h : t.val + 1 < 16 then v (ix4 o ⟨t.val + 1, h⟩ n c) else _)
      else if c.val < 128 then (if h : 1 ≤ t.val then v (ix4 o ⟨t.val - 1, by omega⟩ n c) else _)
      else v (ix4 o t n c)
  by_cases h0 : c.val < 64
  · rw [dif_pos h0, if_pos h0, forward_tile]
  · rw [dif_neg h0, if_neg h0]
    by_cases h1 : c.val < 128
    · rw [dif_pos h1, if_pos h1, backward_tile]
      have e : (⟨64 + (c.val - 64), by omega⟩ : Fin 256) = c := Fin.ext (by show 64 + (c.val - 64) = c.val; omega)
      simp only [e]
    · rw [dif_neg h1, if_neg h1, kept_tile]
      have e : (⟨128 + (c.val - 128), by omega⟩ : Fin 256) = c := Fin.ext (by show 128 + (c.val - 128) = c.val; omega)
      rw [e]

end Cert.Shift

namespace Cert.KernelIdeal.KValue

open Cert.KernelIdeal Cert.KernelIdeal.Gen Idealize.ShloMosaic Idealize.ShloMosaic.ValueIdx Cert.Shift

variable {F : FTy → Type} [FloatOps F]

/-- What the body stores is the shift of what it loaded, the zero word filling the open ends. -/
theorem body_eq (x0 : Vec F S1x16x256x256 .f32) :
    k0_pay1 x0 = shiftTile (FloatOps.ofBits .f32 0x00000000#32) x0 := by
  unfold k0_pay1
  dsimp only
  rw [shapeCast_self]
  exact groups_eq_shiftTile x0 _ _ rfl _ _ _ _ _ _ _ _

end Cert.KernelIdeal.KValue

end
-- ==== Proof.ShiftReshape.lean ====
/-
  Merging the row and column axes into one pixel axis commutes with the temporal shift.

  A reshape keeps the row-major position of every entry. The entry of the five-axis tensor at
  (batch, frame, row, column, channel) therefore sits in the merged layout at (batch, frame, 64 · row + column, channel):
  the frame and channel coordinates are the same in both layouts, and the shift moves nothing but the frame
  coordinate. So shifting in the merged layout and reshaping back is shifting the five-axis tensor.
-/
import proofs.«149480_j38646115730016_1_alg».proof.Proof.TemporalShift
import Idealize.ShloMosaic.Lib.Pipeline.Value

noncomputable section

namespace Cert.Shift

open Idealize.ShloMosaic Idealize.ShloMosaic.ValueIdx

variable {α : Type}

/-- The pixel a row and a column merge into. -/
abbrev pixel (r : Fin 64) (w : Fin 64) : Fin 4096 := ⟨r.val * 64 + w.val, by omega⟩

/-- The two layouts put (batch, frame, row, column, channel) at the same row-major position. -/
theorem rowMajor_flat_video (b : Fin 4) (t : Fin 16) (r : Fin 64) (w : Fin 64) (c : Fin 256) :
    (Flat.rowMajor (ix4 b t (pixel r w) c)).val = (Video.rowMajor (ix5 b t r w c)).val := by
  rw [Shape.rowMajor_val_four, Shape.rowMajor_val_five]
  show ((b.val * 16 + t.val) * 4096 + (r.val * 64 + w.val)) * 256 + c.val
    = (((b.val * 16 + t.val) * 64 + r.val) * 64 + w.val) * 256 + c.val
  omega

/-- The merged layout read at a pixel is the tensor read at the pixel's row and column. -/
theorem merged_apply (x : Video.Idx → α) (h : Video.ShapeCasts Flat) (b : Fin 4) (t : Fin 16) (r : Fin 64) (w : Fin 64)
    (c : Fin 256) : shapeCast Flat x h (ix4 b t (pixel r w) c) = x (ix5 b t r w c) :=
  shapeCast_apply x h _ _ (rowMajor_flat_video b t r w c).symm

/-- Merge, shift, split again: the shift of the five-axis tensor. -/
theorem shift_reshape (z : α) (x : Video.Idx → α) (h1 : Video.ShapeCasts Flat) (h2 : Flat.ShapeCasts Video) :
    shapeCast Video (shiftFlat z (shapeCast Flat x h1)) h2 = shiftVideo z x := by
  funext i
  obtain ⟨b, t, r, w, c, rfl⟩ : ∃ (b : Fin 4) (t : Fin 16) (r : Fin 64) (w : Fin 64) (c : Fin 256), i = ix5 b t r w c :=
    ⟨i 0, i 1, i 2, i 3, i 4, eq_ix5 i⟩
  rw [shapeCast_apply _ h2 (ix5 b t r w c) (ix4 b t (pixel r w) c) (rowMajor_flat_video b t r w c)]
  unfold shiftFlat shiftVideo
  refine pick_congr z rfl rfl (funext fun t' => ?_)
  exact merged_apply x h1 b t' r w c

end Cert.Shift

end
-- ==== Proof.ArrayShift.lean ====
/-
  The kernel's result array is the temporal shift of its argument.

  The program merges the argument's row and column axes into one pixel axis, runs the kernel body once per tile of the
  merged array — 4 batch entries times 16 groups of 256 pixels, each tile holding every frame and every channel of its
  pixels — and splits the pixel axis again. Each run reads its tile of the merged input and writes the same tile of the
  merged output, and what it writes is the shift of what it read. Since the shift of the whole merged array, read
  through a tile, only ever looks at entries of that same tile, every run writes its tile of ONE array: the shift of the
  merged input. The tiles cover the merged array, so that is what the output holds; splitting the pixels again gives
  the shift of the five-axis argument.
-/
import proofs.«149480_j38646115730016_1_alg».proof.Proof.BodyShift
import proofs.«149480_j38646115730016_1_alg».proof.Proof.ShiftReshape
import proofs.«149480_j38646115730016_1_alg».proof.Proof.Gen.KernelIdeal.Frame
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.Shift
open Idealize.ShloMosaic.Pipeline (Dat)

variable {F : FTy → Type} [FloatOps F]
variable (m : (ℓ : Loc nD τ sig) → Buf (Elt F) ℓ) (ρ : Dev nD → PrngReg)

/-- The body's load and store start at the tile's origin. -/
theorem origin : (![0, 0, 0, 0] : Fin 4 → Nat) = fun _ => 0 := funext fun a => by fin_cases a <;> rfl

/-- The two windows' tiles at a grid point, decided over the 64 points: the input tile and the output tile are the
    same tile, and a tile starts at frame 0 and channel 0. -/
theorem tile_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (1 : Fin 4) = 0 ∧ win0_1.index t (3 : Fin 4) = 0 :=
  (by decide +kernel : ∀ t : Fin grid0.N, _)

/-- Every (batch entry, group of 256 pixels) is some grid point's output tile. -/
theorem tile_onto : ∀ (q0 : Fin 4) (q2 : Fin 16), ∃ t : Fin cfg0.N, win0_1.index t = ![q0.val, 0, q2.val, 0] :=
  (by decide +kernel : ∀ (q0 : Fin 4) (q2 : Fin 16), ∃ t : Fin grid0.N, win0_1.index t = ![q0.val, 0, q2.val, 0])

/-- What grid point `t` writes back is its tile of the shift of the merged input. -/
theorem flushed_eq (c : Dev nD) (t : Fin cfg0.N) :
    (dats m 0 c).flushed 1 t
      = ((cfg0.win 1).blk t).view.read (Elt F) (shiftFlat (FloatOps.ofBits .f32 0x00000000#32) (V m c main_v0)) := by
  show (cfg0.win 1).cut (grid0.coords t) ((dats m 0 c).after 1 t) = _
  rw [after0_1]
  unfold out0_1
  rw [View.canon_unit_zero origin]
  simp only [View.ld_unit_zero (S := S1x16x256x256) origin]
  rw [body_eq]
  obtain ⟨e0, e1, e2, e3, e4, e5⟩ := tile_facts t
  funext j
  show pick (FloatOps.ofBits .f32 0x00000000#32) (j 1) (j 3).val
      (fun t' => V m c main_v0 (((cfg0.win 0).blk t).view.emb (ix4 (j 0) t' (j 2) (j 3))))
    = pick (FloatOps.ofBits .f32 0x00000000#32) ((((cfg0.win 1).blk t).view.emb j) 1) ((((cfg0.win 1).blk t).view.emb j) 3).val
      (fun t' => V m c main_v0 (ix4 ((((cfg0.win 1).blk t).view.emb j) 0) t' ((((cfg0.win 1).blk t).view.emb j) 2)
        ((((cfg0.win 1).blk t).view.emb j) 3)))
  refine pick_congr _ (Fin.ext ?_) ?_ (funext fun t' => congrArg (V m c main_v0) (funext fun a => Fin.ext ?_))
  · show (j 1).val = win0_1.index t (1 : Fin 4) * 16 + 1 * (j 1).val
    omega
  · show (j 3).val = win0_1.index t (3 : Fin 4) * 256 + 1 * (j 3).val
    omega
  · match a with
    | ⟨0, _⟩ =>
      show win0_0.index t (0 : Fin 4) * 1 + 1 * (j 0).val = win0_1.index t (0 : Fin 4) * 1 + 1 * (j 0).val
      omega
    | ⟨1, _⟩ =>
      show win0_0.index t (1 : Fin 4) * 16 + 1 * t'.val = t'.val
      omega
    | ⟨2, _⟩ =>
      show win0_0.index t (2 : Fin 4) * 256 + 1 * (j 2).val = win0_1.index t (2 : Fin 4) * 256 + 1 * (j 2).val
      omega
    | ⟨3, _⟩ =>
      show win0_0.index t (3 : Fin 4) * 256 + 1 * (j 3).val = win0_1.index t (3 : Fin 4) * 256 + 1 * (j 3).val
      omega

/-- An index of the merged array is in point `t`'s output tile iff each coordinate is in the tile's range on its axis. -/
theorem mem_tile (t : Fin cfg0.N) (i : S4x16x4096x256.Idx) :
    i ∈ ((cfg0.win 1).blk t).view.set ↔ ∀ a : Fin 4, win0_1.index t a * S1x16x256x256.size a ≤ (i a).val
      ∧ (i a).val < win0_1.index t a * S1x16x256x256.size a + S1x16x256x256.size a := by
  show i ∈ ((View.whole main_v1).slice (win0_1.rect t)).set ↔ _
  rw [View.set_slice_whole, Rect.mem_set_unit]
  exact Iff.rfl

/-- The tiles cover the merged array: pixel `p` of batch entry `b` is in the tile of (b, p / 256). -/
theorem tiles_cover (i : S4x16x4096x256.Idx) :
    ∃ t : Fin cfg0.N, (cfg0.win 1).flush t = true ∧ i ∈ ((cfg0.win 1).blk t).view.set := by
  have hi0 : (i 0).val < 4 := (i 0).isLt
  have hi1 : (i 1).val < 16 := (i 1).isLt
  have hi2 : (i 2).val < 4096 := (i 2).isLt
  have hi3 : (i 3).val < 256 := (i 3).isLt
  obtain ⟨t, ht⟩ := tile_onto ⟨(i 0).val, hi0⟩ ⟨(i 2).val / 256, by omega⟩
  have q0 : win0_1.index t (0 : Fin 4) = (i 0).val := congrFun ht 0
  have q1 : win0_1.index t (1 : Fin 4) = 0 := congrFun ht 1
  have q2 : win0_1.index t (2 : Fin 4) = (i 2).val / 256 := congrFun ht 2
  have q3 : win0_1.index t (3 : Fin 4) = 0 := congrFun ht 3
  refine ⟨t, flush0_1 t, ?_⟩
  rw [mem_tile]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 16 ≤ (i 1).val ∧ (i 1).val < win0_1.index t (1 : Fin 4) * 16 + 16
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 256 ≤ (i 3).val ∧ (i 3).val < win0_1.index t (3 : Fin 4) * 256 + 256
    omega

/-- The merged output after the region is the shift of the merged input. -/
theorem merged_output (c : Dev nD) :
    (dats m 0 c).arrAt 1 cfg0.N = shiftFlat (FloatOps.ofBits .f32 0x00000000#32) (V m c main_v0) :=
  (dats m 0 c).arrAt_eq_of_cover 1 _ (fun t _ => flushed_eq m c t) tiles_cover

end Cert.KernelIdeal.KValue

end
-- ==== Proof.KernelRun.lean ====
/-
  The kernel program's run, with its result named.

  Before the region the program merges the argument's rows and columns; after it, it splits them again. The region leaves
  the merged output at the shift of the merged input, and merging, shifting and splitting again is the shift of the
  five-axis argument. So every weakly fair execution ends with the result buffer holding the temporal shift of the
  argument, and the argument unchanged.
-/
import proofs.«149480_j38646115730016_1_alg».proof.Proof.ArrayShift

noncomputable section

namespace Cert.KernelIdeal.KValue

open Cert.KernelIdeal Cert.KernelIdeal.Gen Idealize.ShloMosaic Idealize.ShloMosaic.TcCoe Idealize.SL.Sem
open Idealize.ShloMosaic.ValueIdx Cert.Shift
open Idealize.ShloMosaic.Pipeline (Dat)

variable {F : FTy → Type} [FloatOps F]
variable (m : (ℓ : Loc nD τ sig) → Buf (Elt F) ℓ) (ρ : Dev nD → PrngReg)

/-- The region finds, as its input array, the argument with rows and columns merged. -/
theorem merged_input (c : Dev nD) :
    (V m c main_v0 : S4x16x4096x256.Idx → Elt F .f32)
      = shapeCast S4x16x4096x256 (m ((c : Thread nD τ).loc main_arg0)) shapeCasts_S4x16x64x64x256_S4x16x4096x256 := by
  show StableHlo.after hostOps0 (fun b => m (c, b)) (Proc.devRef .tc main_v0) = _
  after_results
  rfl

/-- After the line that follows the region the result buffer holds the temporal shift of the argument. -/
theorem result_eq (c : Dev nD) :
    Pipeline.afterTail₀ cfgs (dats m) 0 (V0 m) [hostOps1] c main_v2
      = shiftVideo (FloatOps.ofBits .f32 0x00000000#32) (m ((c : Thread nD τ).loc main_arg0)) := by
  have hw : Pipeline.withArrays spec0 c (V0 m c) (fun w => (dats m 0 c).arrAt w cfg0.N) (Proc.devRef .tc main_v1)
      = shiftFlat (FloatOps.ofBits .f32 0x00000000#32) (V m c main_v0) :=
    (Pipeline.withArrays_arr spec0 launch0.win.arr_inj c _ _ 1).trans (merged_output m c)
  unfold Pipeline.afterTail₀
  show StableHlo.after hostOps1 _ (Proc.devRef .tc main_v2) = _
  after_results
  refine (congrArg (fun X => shapeCast S4x16x64x64x256 X shapeCasts_S4x16x4096x256_S4x16x64x64x256) hw).trans ?_
  rw [merged_input]
  exact shift_reshape _ _ _ _

/-- The kernel program's run: the result is the temporal shift of the argument, the argument is unchanged. -/
theorem run : θ_run defs (onTc (τ := τ) (main (F := F))) ⟨m, fun _ => 0, ρ⟩ fun r => ∀ c : Dev nD,
      r.2.mem ((c : Thread nD τ).loc main_v2)
        = shiftVideo (FloatOps.ofBits .f32 0x00000000#32) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.KValue

end
-- ==== Proof.lean ====
/-
  The temporal shift kernel computes what its reference computes.

  The input is a video tensor [batch 4, frame 16, row 64, column 64, channel 256]. The result, at every index, is
    * for channels 0 … 63, the input one frame later (zero at the last frame),
    * for channels 64 … 127, the input one frame earlier (zero at the first frame),
    * for channels 128 … 255, the input itself.
  The reference builds this from cuts and joins of the whole tensor. The kernel program merges rows and columns into
  4096 pixels, visits the merged tensor tile by tile (one batch entry, all frames, 256 pixels, all channels), builds the
  same cuts and joins inside each tile, and splits the pixels again. Both are data movement only: no entry is ever
  computed with, so the two results are the same function of the input for any element type, and in particular over the
  extended reals. The zero entries are the same zero word on both sides. Nothing here needs the inputs to be finite.

  The parts: the shift as one function of the input, in each layout (TemporalShift); a join read at an index
  (JoinRead); the reference is the shift (ReferenceShift); the kernel body is the shift of its tile (BodyShift); the
  tiles assemble to the shift of the merged tensor (ArrayShift); merging, shifting and splitting is the shift
  (ShiftReshape); the kernel program's run with its result named (KernelRun). The three frames come from the generated
  frame modules and the reference's generated run; the kernel and its idealization are the same text, so `preserves`
  has nothing to state.
-/
import proofs.«149480_j38646115730016_1_alg».proof.Defs
import proofs.«149480_j38646115730016_1_alg».proof.Proof.Gen.Kernel
import proofs.«149480_j38646115730016_1_alg».proof.Proof.Gen.Kernel.Skeleton
import proofs.«149480_j38646115730016_1_alg».proof.Proof.Gen.Kernel.Launch
import proofs.«149480_j38646115730016_1_alg».proof.Proof.Gen.Kernel.Points
import proofs.«149480_j38646115730016_1_alg».proof.Proof.Gen.Kernel.Frame
import proofs.«149480_j38646115730016_1_alg».proof.Proof.Gen.KernelIdeal
import proofs.«149480_j38646115730016_1_alg».proof.Proof.Gen.KernelIdeal.Skeleton
import proofs.«149480_j38646115730016_1_alg».proof.Proof.Gen.KernelIdeal.Launch
import proofs.«149480_j38646115730016_1_alg».proof.Proof.Gen.KernelIdeal.Points
import proofs.«149480_j38646115730016_1_alg».proof.Proof.Gen.KernelIdeal.Frame
import proofs.«149480_j38646115730016_1_alg».proof.Proof.Gen.ReferenceIdeal
import proofs.«149480_j38646115730016_1_alg».proof.Proof.Gen.ReferenceIdeal.Run
import proofs.«149480_j38646115730016_1_alg».proof.Proof.Gen.ReferenceIdeal.Read
import proofs.«149480_j38646115730016_1_alg».proof.Proof.Gen.Pre_finite_inputs
import proofs.«149480_j38646115730016_1_alg».proof.Proof.ReferenceShift
import proofs.«149480_j38646115730016_1_alg».proof.Proof.KernelRun
import Idealize.ShloMosaic.Adequacy
import Idealize.ShloMosaic.Init

noncomputable section

namespace Cert.Proof

open Idealize.ShloMosaic Idealize.SL.Sem

/-- The kernel as printed terminates, faults nowhere and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: there is no rewrite to account for. -/
theorem preserves : Cert.preserves_Kernel_KernelIdeal := trivial

/-- From memories that agree on the argument, both programs end with the result buffer at the temporal shift of the
    argument: the kernel by its run, the reference by its run and `reference_eq`. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
